-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v3) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_v23) = v1 c
          ∧ r.2.mem ((c.tc : Thread Cert.ReferenceIdeal.nD Cert.ReferenceIdeal.τ).loc Cert.ReferenceIdeal.main_v32) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000000x8 : Shape := ⟨2, ![2000000, 8]⟩
abbrev S2000000 : Shape := ⟨1, ![2000000]⟩
abbrev S_ : Shape := ⟨0, ![]⟩

class Facts : Prop where
  bcast_S_S2000000x8 : S_.BroadcastsInDim S2000000x8 (![] : Fin 0 → Fin S2000000x8.rank)
  reducesTo_S2000000x8_S_d0_1 : S2000000x8.ReducesTo [0, 1] S_
  h_S_ : 0 < S_.numel
  bcast_S_S2000000 : S_.BroadcastsInDim S2000000 (![] : Fin 0 → Fin S2000000.rank)
  reducesTo_S2000000_S_d0 : S2000000.ReducesTo [0] S_

variable [Facts]

def fn_part1 {F : FTy → Type} [FloatOps F] (main_v13 : IVec S_ 1) (main_v16 : IVec S2000000 1) : IVec S_ 1 :=
  let main_c_5 : IVec S_ 1 := constantI S_ 1 1#1
  let main_v17 : IVec S_ 1 := (fun x v => Host.reduce IntOp.andi x v reducesTo_S2000000_S_d0 h_S_) main_v16 main_c_5
  let main_v18 : IVec S_ 1 := andi main_v13 main_v17
  main_v18

def fn {F : FTy → Type} [FloatOps F] (main_arg0 : FVec F S2000000x8 .f32) (main_arg1 : FVec F S2000000x8 .f32) (main_arg2 : FVec F S2000000 .f32) (main_arg3 : FVec F S2000000 .f32) : IVec S_ 1 :=
  let main_v0 : FVec F S2000000x8 .f32 := Host.absf main_arg0
  let main_cst : FVec F S_ .f32 := constant S_ .f32 0x7F800000#32
  let main_v1 : FVec F S2000000x8 .f32 := broadcastInDim S2000000x8 ![] bcast_S_S2000000x8 main_cst
  let main_v2 : IVec S2000000x8 1 := cmpf .olt main_v0 main_v1
  let main_c : IVec S_ 1 := constantI S_ 1 1#1
  let main_v3 : IVec S_ 1 := (fun x v => Host.reduce IntOp.andi x v reducesTo_S2000000x8_S_d0_1 h_S_) main_v2 main_c
  let main_v4 : FVec F S2000000x8 .f32 := Host.absf main_arg1
  let main_cst_0 : FVec F S_ .f32 := constant S_ .f32 0x7F800000#32
  let main_v5 : FVec F S2000000x8 .f32 := broadcastInDim S2000000x8 ![] bcast_S_S2000000x8 main_cst_0
  let main_v6 : IVec S2000000x8 1 := cmpf .olt main_v4 main_v5
  let main_c_1 : IVec S_ 1 := constantI S_ 1 1#1
  let main_v7 : IVec S_ 1 := (fun x v => Host.reduce IntOp.andi x v reducesTo_S2000000x8_S_d0_1 h_S_) main_v6 main_c_1
  let main_v8 : IVec S_ 1 := andi main_v3 main_v7
  let main_v9 : FVec F S2000000 .f32 := Host.absf main_arg2
  let main_cst_2 : FVec F S_ .f32 := constant S_ .f32 0x7F800000#32
  let main_v10 : FVec F S2000000 .f32 := broadcastInDim S2000000 ![] bcast_S_S2000000 main_cst_2
  let main_v11 : IVec S2000000 1 := cmpf .olt main_v9 main_v10
  let main_c_3 : IVec S_ 1 := constantI S_ 1 1#1
  let main_v12 : IVec S_ 1 := (fun x v => Host.reduce IntOp.andi x v reducesTo_S2000000_S_d0 h_S_) main_v11 main_c_3
  let main_v13 : IVec S_ 1 := andi main_v8 main_v12
  let main_v14 : FVec F S2000000 .f32 := Host.absf main_arg3
  let main_cst_4 : FVec F S_ .f32 := constant S_ .f32 0x7F800000#32
  let main_v15 : FVec F S2000000 .f32 := broadcastInDim S2000000 ![] bcast_S_S2000000 main_cst_4
  let main_v16 : IVec S2000000 1 := cmpf .olt main_v14 main_v15
  fn_part1 (F := F) main_v13 main_v16
-- ==== Kernel.lean ====
abbrev S2000000x8 : Shape := ⟨2, ![2000000, 8]⟩
abbrev S2000000 : Shape := ⟨1, ![2000000]⟩
abbrev S2000000x1 : Shape := ⟨2, ![2000000, 1]⟩
abbrev S100000x8 : Shape := ⟨2, ![100000, 8]⟩
abbrev S100000x1 : Shape := ⟨2, ![100000, 1]⟩
abbrev S100000 : Shape := ⟨1, ![100000]⟩

abbrev nBuf : Space → Nat
  | .hbm => 10
  | .vmem => 12
  | .smem => 0
  | _ => 0

abbrev bufTy : (tb : Table) → Fin (tcTables nBuf tb) → BufTy
  | .hbm, ⟨0, _⟩ => ⟨S2000000x8, .f32⟩
  | .hbm, ⟨1, _⟩ => ⟨S2000000x8, .f32⟩
  | .hbm, ⟨2, _⟩ => ⟨S2000000, .f32⟩
  | .hbm, ⟨3, _⟩ => ⟨S2000000, .f32⟩
  | .hbm, ⟨4, _⟩ => ⟨S2000000x1, .f32⟩
  | .hbm, ⟨5, _⟩ => ⟨S2000000x1, .f32⟩
  | .hbm, ⟨6, _⟩ => ⟨S2000000x8, .f32⟩
  | .hbm, ⟨7, _⟩ => ⟨S2000000x8, .f32⟩
  | .hbm, ⟨8, _⟩ => ⟨S2000000x1, .f32⟩
  | .hbm, ⟨9, _⟩ => ⟨S2000000, .f32⟩
  | .local _ .vmem, ⟨0, _⟩ => ⟨S100000x8, .f32⟩
  | .local _ .vmem, ⟨1, _⟩ => ⟨S100000x8, .f32⟩
  | .local _ .vmem, ⟨2, _⟩ => ⟨S100000x1, .f32⟩
  | .local _ .vmem, ⟨3, _⟩ => ⟨S100000x1, .f32⟩
  | .local _ .vmem, ⟨4, _⟩ => ⟨S100000x1, .f32⟩
  | .local _ .vmem, ⟨5, _⟩ => ⟨S100000x1, .f32⟩
  | .local _ .vmem, ⟨6, _⟩ => ⟨S100000x8, .f32⟩
  | .local _ .vmem, ⟨7, _⟩ => ⟨S100000x8, .f32⟩
  | .local _ .vmem, ⟨8, _⟩ => ⟨S100000x8, .f32⟩
  | .local _ .vmem, ⟨9, _⟩ => ⟨S100000x8, .f32⟩
  | .local _ .vmem, ⟨10, _⟩ => ⟨S100000x1, .f32⟩
  | .local _ .vmem, ⟨11, _⟩ => ⟨S100000x1, .f32⟩
  | _, _ => ⟨S2000000x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S100000x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S100000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S100000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S100000x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S100000x8 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S100000x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S2000000_S2000000x1 : S2000000.ShapeCasts S2000000x1
  inb_S100000x8_S100000x8_0_0 : ∀ a, (![0, 0] : Fin 2 → Nat) a + S100000x8.size a ≤ S100000x8.size a
  h_S100000x8 : 0 < S100000x8.numel
  inb_S100000x1_S100000x1_0_0 : ∀ a, (![0, 0] : Fin 2 → Nat) a + S100000x1.size a ≤ S100000x1.size a
  h_S100000x1 : 0 < S100000x1.numel
  shapeCasts_S100000x1_S100000x1 : S100000x1.ShapeCasts S100000x1
  rotates_S100000x8_d1 : S100000x8.Rotates 1 none
  broadcasts_S100000x1_S100000x8 : S100000x1.Broadcasts S100000x8
  reduces_S100000x8_S100000 : S100000x8.Reduces [1] S100000
  shapeCasts_S100000_S100000x1 : S100000.ShapeCasts S100000x1
  slices_S100000x8_o0_7_S100000x1 : S100000x8.Slices ![0, 7] S100000x1
  shapeCasts_S2000000x1_S2000000 : S2000000x1.ShapeCasts S2000000
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S100000x8.size a ≤ S2000000x8.size a
  hwx0_0 : ∀ i : grid0.Coords, EltTy.bits .f32 = 32 ∨ (Rect.block (s := S2000000x8) S100000x8.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S100000x1.size a ≤ S2000000x1.size a
  hwx0_1 : ∀ i : grid0.Coords, EltTy.bits .f32 = 32 ∨ (Rect.block (s := S2000000x1) S100000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S100000x1.size a ≤ S2000000x1.size a
  hwx0_2 : ∀ i : grid0.Coords, EltTy.bits .f32 = 32 ∨ (Rect.block (s := S2000000x1) S100000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S100000x8.size a ≤ S2000000x8.size a
  hwx0_3 : ∀ i : grid0.Coords, EltTy.bits .f32 = 32 ∨ (Rect.block (s := S2000000x8) S100000x8.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S100000x8.size a ≤ S2000000x8.size a
  hwx0_4 : ∀ i : grid0.Coords, EltTy.bits .f32 = 32 ∨ (Rect.block (s := S2000000x8) S100000x8.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S100000x1.size a ≤ S2000000x1.size a
  hwx0_5 : ∀ i : grid0.Coords, EltTy.bits .f32 = 32 ∨ (Rect.block (s := S2000000x1) S100000x1.size (cc0_transform_5 i) (hinb0_5 i)).WholeWords (EltTy.packing .f32)

variable [Facts₀]

abbrev win0_0 : Pipeline.Window sig grid0 :=
  Pipeline.Window.ofSpec (Memref.whole main_arg1) S100000x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S100000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S100000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_0) S100000x8.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_1) S100000x8.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_2) S100000x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2000000x8 : Shape := ⟨2, ![2000000, 8]⟩
abbrev S2000000 : Shape := ⟨1, ![2000000]⟩
abbrev S1 : Shape := ⟨1, ![1]⟩
abbrev S2000000x1 : Shape := ⟨2, ![2000000, 1]⟩
abbrev S_ : Shape := ⟨0, ![]⟩
abbrev S2000000x7 : Shape := ⟨2, ![2000000, 7]⟩
abbrev S2000000x2 : Shape := ⟨2, ![2000000, 2]⟩
abbrev S2000000x6 : Shape := ⟨2, ![2000000, 6]⟩
abbrev S1x1 : Shape := ⟨2, ![1, 1]⟩

abbrev nBuf : Space → Nat
  | .hbm => 55
  | .vmem => 0
  | .smem => 0
  | _ => 0

abbrev bufTy : (tb : Table) → Fin (tcTables nBuf tb) → BufTy
  | .hbm, ⟨0, _⟩ => ⟨S2000000x8, .f32⟩
  | .hbm, ⟨1, _⟩ => ⟨S2000000x8, .f32⟩
  | .hbm, ⟨2, _⟩ => ⟨S2000000, .f32⟩
  | .hbm, ⟨3, _⟩ => ⟨S2000000, .f32⟩
  | .hbm, ⟨4, _⟩ => ⟨S1, .i32⟩
  | .hbm, ⟨5, _⟩ => ⟨S2000000, .f32⟩
  | .hbm, ⟨6, _⟩ => ⟨S2000000x1, .f32⟩
  | .hbm, ⟨7, _⟩ => ⟨S_, .f32⟩
  | .hbm, ⟨8, _⟩ => ⟨S2000000, .f32⟩
  | .hbm, ⟨9, _⟩ => ⟨S2000000, .f32⟩
  | .hbm, ⟨10, _⟩ => ⟨S2000000, .f32⟩
  | .hbm, ⟨11, _⟩ => ⟨S2000000x1, .f32⟩
  | .hbm, ⟨12, _⟩ => ⟨S_, .f32⟩
  | .hbm, ⟨13, _⟩ => ⟨S2000000, .f32⟩
  | .hbm, ⟨14, _⟩ => ⟨S2000000, .f32⟩
  | .hbm, ⟨15, _⟩ => ⟨S2000000x1, .f32⟩
  | .hbm, ⟨16, _⟩ => ⟨S2000000x1, .f32⟩
  | .hbm, ⟨17, _⟩ => ⟨S2000000x7, .f32⟩
  | .hbm, ⟨18, _⟩ => ⟨S2000000x8, .f32⟩
  | .hbm, ⟨19, _⟩ => ⟨S2000000x8, .f32⟩
  | .hbm, ⟨20, _⟩ => ⟨S2000000x8, .f32⟩
  | .hbm, ⟨21, _⟩ => ⟨S2000000x2, .f32⟩
  | .hbm, ⟨22, _⟩ => ⟨S2000000x6, .f32⟩
  | .hbm, ⟨23, _⟩ => ⟨S2000000x8, .f32⟩
  | .hbm, ⟨24, _⟩ => ⟨S2000000x8, .f32⟩
  | .hbm, ⟨25, _⟩ => ⟨S2000000x8, .f32⟩
  | .hbm, ⟨26, _⟩ => ⟨S2000000x8, .f32⟩
  | .hbm, ⟨27, _⟩ => ⟨S2000000x8, .f32⟩
  | .hbm, ⟨28, _⟩ => ⟨S2000000x8, .f32⟩
  | .hbm, ⟨29, _⟩ => ⟨S2000000x8, .f32⟩
  | .hbm, ⟨30, _⟩ => ⟨S_, .f32⟩
  | .hbm, ⟨31, _⟩ => ⟨S2000000, .f32⟩
  | .hbm, ⟨32, _⟩ => ⟨S2000000x1, .f32⟩
  | .hbm, ⟨33, _⟩ => ⟨S2000000x8, .f32⟩
  | .hbm, ⟨34, _⟩ => ⟨S2000000x8, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S2000000x8, .f32⟩
  | .hbm, ⟨39, _⟩ => ⟨S2000000x8, .f32⟩
  | .hbm, ⟨40, _⟩ => ⟨S_, .f32⟩
  | .hbm, ⟨41, _⟩ => ⟨S2000000x8, .f32⟩
  | .hbm, ⟨42, _⟩ => ⟨S2000000x8, .f32⟩
  | .hbm, ⟨43, _⟩ => ⟨S2000000x8, .f32⟩
  | .hbm, ⟨44, _⟩ => ⟨S_, .i32⟩
  | .hbm, ⟨45, _⟩ => ⟨S1, .i32⟩
  | .hbm, ⟨46, _⟩ => ⟨S1, .i1⟩
  | .hbm, ⟨47, _⟩ => ⟨S_, .i32⟩
  | .hbm, ⟨48, _⟩ => ⟨S1, .i32⟩
  | .hbm, ⟨49, _⟩ => ⟨S1, .i32⟩
  | .hbm, ⟨50, _⟩ => ⟨S1, .i32⟩
  | .hbm, ⟨51, _⟩ => ⟨S1x1, .i32⟩
  | .hbm, ⟨52, _⟩ => ⟨S2000000x1, .f32⟩
  | .hbm, ⟨53, _⟩ => ⟨S_, .f32⟩
  | .hbm, ⟨54, _⟩ => ⟨S2000000, .f32⟩
  | _, _ => ⟨S2000000x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_call0_v0 : Ref sig .tc := ⟨.hbm, 16, rfl⟩
abbrev main_call0_v1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_call1_v0 : Ref sig .tc := ⟨.hbm, 21, rfl⟩
abbrev main_call1_v1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_1 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_2 : Ref sig .tc := ⟨.hbm, 35, rfl⟩
abbrev main_cst_3 : Ref sig .tc := ⟨.hbm, 36, rfl⟩
abbrev main_call2_v0 : Ref sig .tc := ⟨.hbm, 37, rfl⟩
abbrev main_call2_v1 : Ref sig .tc := ⟨.hbm, 38, rfl⟩
abbrev main_call2_v2 : Ref sig .tc := ⟨.hbm, 39, rfl⟩
abbrev main_call2_v3 : Ref sig .tc := ⟨.hbm, 40, rfl⟩
abbrev main_call2_v4 : Ref sig .tc := ⟨.hbm, 41, rfl⟩
abbrev main_v23 : Ref sig .tc := ⟨.hbm, 42, rfl⟩
abbrev main_v24 : Ref sig .tc := ⟨.hbm, 43, rfl⟩
abbrev main_c_4 : Ref sig .tc := ⟨.hbm, 44, rfl⟩
abbrev main_v25 : Ref sig .tc := ⟨.hbm, 45, rfl⟩
abbrev main_v26 : Ref sig .tc := ⟨.hbm, 46, rfl⟩
abbrev main_c_5 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_6 : Ref sig .tc := ⟨.hbm, 53, rfl⟩
abbrev main_v32 : Ref sig .tc := ⟨.hbm, 54, rfl⟩

abbrev nD : Nat := 1
abbrev τ : Topo := Topo.v7x

variable {F : FTy → Type} [FloatOps F]

class Facts₀ : Prop where
  bcast_S2000000_S2000000x1_0 : S2000000.BroadcastsInDim S2000000x1 (![0] : Fin 1 → Fin S2000000x1.rank)
  bcast_S_S2000000 : S_.BroadcastsInDim S2000000 (![] : Fin 0 → Fin S2000000.rank)
  slices_S2000000x8_S2000000x1_0_7 : S2000000x8.Slices ![0, 7] S2000000x1
  slices_S2000000x8_S2000000x7_0_0 : S2000000x8.Slices ![0, 0] S2000000x7
  concatenates_S2000000x1_S2000000x7_S2000000x8_d1 : Shape.Concatenates [S2000000x1, S2000000x7] S2000000x8 1
  bcast_S2000000x1_S2000000x8_0_1 : S2000000x1.BroadcastsInDim S2000000x8 (![0, 1] : Fin 2 → Fin S2000000x8.rank)
  slices_S2000000x8_S2000000x2_0_6 : S2000000x8.Slices ![0, 6] S2000000x2
  slices_S2000000x8_S2000000x6_0_0 : S2000000x8.Slices ![0, 0] S2000000x6
  concatenates_S2000000x2_S2000000x6_S2000000x8_d1 : Shape.Concatenates [S2000000x2, S2000000x6] S2000000x8 1
  reducesTo_S2000000x8_S2000000_d1 : S2000000x8.ReducesTo [1] S2000000
  h_S_ : 0 < S_.numel
  bcast_S_S2000000x8 : S_.BroadcastsInDim S2000000x8 (![] : Fin 0 → Fin S2000000x8.rank)
  bcast_S_S1 : S_.BroadcastsInDim S1 (![] : Fin 0 → Fin S1.rank)
  bcast_S1_S1x1_0 : S1.BroadcastsInDim S1x1 (![0] : Fin 1 → Fin S1x1.rank)
  reducesTo_S2000000x1_S2000000_d1 : S2000000x1.ReducesTo [1] S2000000
  gather_S2000000x8_S1x1_S2000000x1_0_1_n_n_1_1_20000001_wf : GatherDims.WF S2000000x8 S1x1 S2000000x1 [0] [1] [] [1] [] 1 ![2000000, 1]

variable [Facts₀]

def gather_S2000000x8_S1x1_S2000000x1_0_1_n_n_1_1_20000001 : GatherDims S2000000x8 S1x1 S2000000x1 where
  offsetDims := [0]
  collapsedSliceDims := [1]
  operandBatchingDims := []
  startIndicesBatchingDims := []
  startIndexMap := [1]
  indexVectorDim := 1
  sliceSizes := ![2000000, 1]
  wf := gather_S2000000x8_S1x1_S2000000x1_0_1_n_n_1_1_20000001_wf

class Facts : Prop extends Facts₀ where

variable [Facts]
-- ==== Proof.Ring.lean ====
/-
  One step of a fuzzy automaton on a ring of eight states, over the extended reals.

  A row holds a weight `s j` for each state `j : Fin 8`, and two scalars `a`, `b` weigh the three moves a state
  can make: arrive from the state one step behind (weight `a * b`), arrive from the state two steps behind
  (weight `a * (1 - b)`), or stay (weight `1 - a`). The unnormalised new weight of `j` is the sum of the three
  contributions; the new weight is that divided by the row's total, clamped into `[lo, hi]`. Both programs of this
  certificate compute exactly this, row by row, so it is stated once here, free of any program.

  The three float words (`1`, the lower clamp, the upper clamp) are the same words in both programs; they stay words
  and are never evaluated.
-/
import Idealize.ShloMosaic.PureOps.Ideal
import Idealize.ShloMosaic.Lib.ValueIdx

noncomputable section

open scoped BigOperators

namespace Cert.Ring

open Idealize.ShloMosaic Idealize.ShloMosaic.ValueIdx

/-- The word both programs write for `1.0`. -/
abbrev one : EReal := Ideal.ofBits .f32 0x3F800000#32
/-- The lower clamp's word. -/
abbrev lo : EReal := Ideal.ofBits .f32 0x33D6BF95#32
/-- The upper clamp's word. -/
abbrev hi : EReal := Ideal.ofBits .f32 0x3F7FFFFE#32

/-- The state `k` steps behind `j` on the ring of eight. -/
def back (k : Nat) (j : Fin 8) : Fin 8 := ⟨(j.val + 8 - k % 8) % 8, Nat.mod_lt _ (by decide)⟩

/-- State `j`'s unnormalised new weight: from one step behind, from two steps behind, and from staying. -/
def unnorm (s : Fin 8 → EReal) (a b : EReal) (j : Fin 8) : EReal :=
  s (back 1 j) * (a * b) + s (back 2 j) * (a * (one - b)) + s j * (one - a)

/-- State `j`'s new weight: its share of the row's total, clamped into `[lo, hi]`. -/
def next (s : Fin 8 → EReal) (a b : EReal) (j : Fin 8) : EReal :=
  min hi (max lo (Ideal.div (unnorm s a b j) (∑ k : Fin 8, unnorm s a b k)))

/-- The row of an index into a `[B, n]` array, typed by the literal extent. -/
abbrev row {B n : Nat} (i : (⟨2, ![B, n]⟩ : Shape).Idx) : Fin B := ⟨(i 0).val, idx2_lt0 i⟩
/-- Its column, typed by the literal extent. -/
abbrev col {B n : Nat} (i : (⟨2, ![B, n]⟩ : Shape).Idx) : Fin n := ⟨(i 1).val, idx2_lt1 i⟩

/-- THE NEW WEIGHTS of `B` rows at once: entry `(r, j)` is `next` of row `r` of `x` and the scalars row `r` of the
    two columns holds. -/
def step {B : Nat} (x : (⟨2, ![B, 8]⟩ : Shape).Idx → EReal) (a b : (⟨2, ![B, 1]⟩ : Shape).Idx → EReal) :
    (⟨2, ![B, 8]⟩ : Shape).Idx → EReal :=
  fun i => next (fun k => x (ix2 (row i) k)) (a (ix2 (row i) (0 : Fin 1))) (b (ix2 (row i) (0 : Fin 1))) (col i)

/-- Their logarithms. -/
def logStep {B : Nat} (x : (⟨2, ![B, 8]⟩ : Shape).Idx → EReal) (a b : (⟨2, ![B, 1]⟩ : Shape).Idx → EReal) :
    (⟨2, ![B, 8]⟩ : Shape).Idx → EReal :=
  fun i => Ideal.log (step x a b i)

/-- The accepting state's new weight (state 7), one per row, as a column. -/
def accept {B : Nat} (x : (⟨2, ![B, 8]⟩ : Shape).Idx → EReal) (a b : (⟨2, ![B, 1]⟩ : Shape).Idx → EReal) :
    (⟨2, ![B, 1]⟩ : Shape).Idx → EReal :=
  fun i => step x a b (ix2 (row i) (7 : Fin 8))

/-- A flat vector of `B` scalars read as a column. -/
def asCol {B : Nat} (a : (⟨1, ![B]⟩ : Shape).Idx → EReal) : (⟨2, ![B, 1]⟩ : Shape).Idx → EReal :=
  fun i => a (ix1 (row i))

/-- A column read as a flat vector. -/
def asFlat {B : Nat} (a : (⟨2, ![B, 1]⟩ : Shape).Idx → EReal) : (⟨1, ![B]⟩ : Shape).Idx → EReal :=
  fun i => a (ix2 ⟨(i 0).val, (i 0).isLt⟩ (0 : Fin 1))

theorem row_ix2 {B n : Nat} (p : Fin B) (q : Fin n) : row (ix2 p q) = p := rfl
theorem col_ix2 {B n : Nat} (p : Fin B) (q : Fin n) : col (ix2 p q) = q := rfl

/-- THE STEP IS ROW-LOCAL: the new weights of a row depend on that row alone. Two arrays, of any heights, that agree
    on a row of one and a row of the other, with columns that agree there too, have the same new weights in those rows.
    This is what lets a block of rows be computed apart from the rest of its array. -/
theorem step_rows {B B' : Nat} (x : (⟨2, ![B, 8]⟩ : Shape).Idx → EReal) (a b : (⟨2, ![B, 1]⟩ : Shape).Idx → EReal)
    (x' : (⟨2, ![B', 8]⟩ : Shape).Idx → EReal) (a' b' : (⟨2, ![B', 1]⟩ : Shape).Idx → EReal)
    (p : Fin B) (p' : Fin B') (q : Fin 8)
    (hx : ∀ k : Fin 8, x (ix2 p k) = x' (ix2 p' k)) (ha : a (ix2 p (0 : Fin 1)) = a' (ix2 p' (0 : Fin 1)))
    (hb : b (ix2 p (0 : Fin 1)) = b' (ix2 p' (0 : Fin 1))) :
    step x a b (ix2 p q) = step x' a' b' (ix2 p' q) := by
  show next (fun k => x (ix2 p k)) (a (ix2 p (0 : Fin 1))) (b (ix2 p (0 : Fin 1))) q
     = next (fun k => x' (ix2 p' k)) (a' (ix2 p' (0 : Fin 1))) (b' (ix2 p' (0 : Fin 1))) q
  rw [ha, hb, funext hx]

end Cert.Ring

end
-- ==== Proof.LibRowLayout.lean ====
/-
  Row layouts read at an index: the handful of re-arrangements a row-wise kernel and a row-wise host program make of a
  `[B, n]` array and its `[B]` / `[B, 1]` companions, each read at explicit coordinates.

  * a flat vector `[B]` cast to a column `[B, 1]`, and a column cast back to a flat vector: the same entry, row by row;
  * a column `[B, 1]` broadcast along the lanes to `[B, n]`: every lane of row `p` holds the column's entry `p`;
  * a rotation of the lanes by `k`: lane `q` holds what lane `q - k` held, around the end;
  * the same rotation spelt as a host program spells it, the last `k` lanes sliced off and joined in front of the rest;
  * a sum over the lanes on the vector unit: the sum of the row's entries, with no initial value in front;
  * a row divided by its own lane sum, the sum cast to a column and broadcast back: each entry's share of its row's total.

  All are statements about indices only; the element type is arbitrary except for the sum and the share, which are over
  extended reals. Nothing here mentions a program.
-/
import Idealize.ShloMosaic.PureOps.Ideal
import Idealize.ShloMosaic.PureOps.Ideal.Laws
import Idealize.ShloMosaic.Lib.ValueIdx
import Idealize.ShloMosaic.Lib.Pipeline.Value
import Idealize.ShloMosaic.Lib.KernelVsHost

noncomputable section

open scoped BigOperators

namespace Cert.RowLayout

open Idealize.ShloMosaic Idealize.ShloMosaic.ValueIdx

variable {α : Type}

/-! ## Casts between a flat vector and a column -/

/-- A flat vector cast to a column holds, in row `p`, the vector's entry `p`: both sit at row-major position `p`. -/
theorem castCol_apply {B : Nat} (v : (⟨1, ![B]⟩ : Shape).Idx → α)
    (h : Shape.ShapeCasts (⟨1, ![B]⟩ : Shape) (⟨2, ![B, 1]⟩ : Shape)) (p : Fin B) :
    shapeCast (⟨2, ![B, 1]⟩ : Shape) v h (ix2 p (0 : Fin 1)) = v (ix1 p) :=
  shapeCast_apply v h (ix2 p (0 : Fin 1)) (ix1 p) (by
    rw [Shape.rowMajor_val_one, Shape.rowMajor_val_two]
    show p.val = p.val * 1 + 0
    omega)

/-- A column cast to a flat vector holds, at `p`, the column's row `p`. -/
theorem castFlat_apply {B : Nat} (v : (⟨2, ![B, 1]⟩ : Shape).Idx → α)
    (h : Shape.ShapeCasts (⟨2, ![B, 1]⟩ : Shape) (⟨1, ![B]⟩ : Shape)) (p : Fin B) :
    shapeCast (⟨1, ![B]⟩ : Shape) v h (ix1 p) = v (ix2 p (0 : Fin 1)) :=
  shapeCast_apply v h (ix1 p) (ix2 p (0 : Fin 1)) (by
    rw [Shape.rowMajor_val_one, Shape.rowMajor_val_two]
    show p.val * 1 + 0 = p.val
    omega)

/-! ## A column broadcast along the lanes -/

/-- A column broadcast to `n` lanes holds the column's entry of row `p` in every lane of row `p`. -/
theorem bcastCol_apply {B n : Nat} (y : (⟨2, ![B, 1]⟩ : Shape).Idx → α)
    (h : Shape.Broadcasts (⟨2, ![B, 1]⟩ : Shape) (⟨2, ![B, n]⟩ : Shape)) (p : Fin B) (q : Fin n) :
    broadcastTo (⟨2, ![B, n]⟩ : Shape) y h (ix2 p q) = y (ix2 p (0 : Fin 1)) :=
  broadcastTo_apply y h (ix2 p q) (ix2 p (0 : Fin 1)) (fun a => match a with
    | ⟨0, _⟩ => by
        show p.val = if B = 1 then 0 else p.val
        split
        · have := p.isLt; omega
        · rfl
    | ⟨1, _⟩ => by
        show 0 = if (1 : Nat) = 1 then 0 else q.val
        rw [if_pos rfl])

/-! ## A rotation of the lanes -/

/-- The lane `k` steps behind `q` among `n` lanes, around the end. -/
def behind {n : Nat} (k : Nat) (q : Fin n) : Fin n := ⟨(q.val + n - k % n) % n, Nat.mod_lt _ (Fin.pos q)⟩

/-- The vector unit's rotation of the lanes by the amount `sb`: lane `q` of the result holds what lane
    `q - sb` of the operand held (around the end), in the same row. -/
theorem rotLanes_apply {B n : Nat} (sb : BitVec 32) (x : (⟨2, ![B, n]⟩ : Shape).Idx → α)
    (h : Shape.Rotates (⟨2, ![B, n]⟩ : Shape) (1 : Fin 2) none) (p : Fin B) (q : Fin n) :
    dynamicRotate (s := (⟨2, ![B, n]⟩ : Shape)) (1 : Fin 2) sb none x h (ix2 p q) = x (ix2 p (behind sb.toNat q)) :=
  dynamicRotate_apply (1 : Fin 2) sb x h (ix2 p q) (ix2 p (behind sb.toNat q)) (fun b => match b with
    | ⟨0, _⟩ => by
        show p.val = if (⟨0, _⟩ : Fin 2) = (1 : Fin 2) then _ else p.val
        rw [if_neg (Fin.ne_of_val_ne Nat.zero_ne_one)]
    | ⟨1, _⟩ => by
        show (q.val + n - sb.toNat % n) % n = if (⟨1, _⟩ : Fin 2) = (1 : Fin 2) then (q.val + n - sb.toNat % n) % n else _
        exact (if_pos (Fin.ext rfl)).symm)

/-- Behind a lane among the first `k`: the rotation wraps, and the lane is `n - k` further on. -/
theorem behind_val_of_lt {n k : Nat} (hk : k < n) (q : Fin n) (hq : q.val < k) : (behind k q).val = q.val + n - k := by
  show (q.val + n - k % n) % n = _
  rw [Nat.mod_eq_of_lt hk, Nat.mod_eq_of_lt (by omega)]

/-- Behind a lane past the first `k`: no wrap, the lane is `k` back. -/
theorem behind_val_of_ge {n k : Nat} (hk : k < n) (q : Fin n) (hq : k ≤ q.val) : (behind k q).val = q.val - k := by
  have hqn : q.val < n := q.isLt
  show (q.val + n - k % n) % n = _
  rw [Nat.mod_eq_of_lt hk, show q.val + n - k = (q.val - k) + n by omega, Nat.add_mod_right, Nat.mod_eq_of_lt (by omega)]

/-- The same rotation as a host program spells it: the last `k` lanes (a slice at lane offset `r = n - k`) joined in
    front of the first `r` lanes (a slice at offset `0`). Lane `q` of the join holds what lane `q - k` of the operand
    held, around the end: a lane among the first `k` comes from the first piece, `r` further on; a later lane from the
    second piece, `k` back. -/
theorem rollConcat_apply {B n k r : Nat} (hkr : k + r = n) (hk0 : 0 < k) (hr0 : 0 < r)
    (x : (⟨2, ![B, n]⟩ : Shape).Idx → α)
    (hs₁ : Shape.Slices (⟨2, ![B, n]⟩ : Shape) ![0, r] (⟨2, ![B, k]⟩ : Shape))
    (hs₂ : Shape.Slices (⟨2, ![B, n]⟩ : Shape) ![0, 0] (⟨2, ![B, r]⟩ : Shape))
    (hc : Shape.Concatenates [(⟨2, ![B, k]⟩ : Shape), (⟨2, ![B, r]⟩ : Shape)] (⟨2, ![B, n]⟩ : Shape) (1 : Fin 2))
    (p : Fin B) (q : Fin n) :
    concatenate (⟨2, ![B, n]⟩ : Shape) (1 : Fin 2)
        [⟨(⟨2, ![B, k]⟩ : Shape), extractStridedSlice (⟨2, ![B, k]⟩ : Shape) ![0, r] x hs₁⟩,
         ⟨(⟨2, ![B, r]⟩ : Shape), extractStridedSlice (⟨2, ![B, r]⟩ : Shape) ![0, 0] x hs₂⟩] hc (ix2 p q)
      = x (ix2 p (behind k q)) := by
  have hkn : k < n := by omega
  have hqn : q.val < n := q.isLt
  by_cases hq : q.val < k
  · -- a lane of the first piece
    refine (concatenate_pair_apply_left (t := (⟨2, ![B, n]⟩ : Shape)) (s₁ := (⟨2, ![B, k]⟩ : Shape)) (s₂ := (⟨2, ![B, r]⟩ : Shape))
      (1 : Fin 2) _ _ hc (ix2 p q) rfl (ix2 p (⟨q.val, hq⟩ : Fin k))
      (fun b => match b with | ⟨0, _⟩ => rfl | ⟨1, _⟩ => rfl)).trans ?_
    refine extractStridedSlice_apply ![0, r] x hs₁ (ix2 p (⟨q.val, hq⟩ : Fin k)) (ix2 p (behind k q)) (fun a => match a with
      | ⟨0, _⟩ => by show p.val = 0 + p.val; omega
      | ⟨1, _⟩ => by
          show (behind k q).val = r + q.val
          rw [behind_val_of_lt hkn q hq]; omega)
  · -- a lane of the second piece
    have hq' : k ≤ q.val := Nat.le_of_not_lt hq
    refine (concatenate_pair_apply_right (t := (⟨2, ![B, n]⟩ : Shape)) (s₁ := (⟨2, ![B, k]⟩ : Shape)) (s₂ := (⟨2, ![B, r]⟩ : Shape))
      (1 : Fin 2) _ _ hc (ix2 p q) rfl rfl (ix2 p (⟨q.val - k, by omega⟩ : Fin r))
      (fun b => match b with
        | ⟨0, _⟩ => fun _ => rfl
        | ⟨1, _⟩ => fun hne => absurd (Fin.ext rfl) hne)
      (by show (q.val - k) + k = q.val; omega)).trans ?_
    refine extractStridedSlice_apply ![0, 0] x hs₂ (ix2 p (⟨q.val - k, by omega⟩ : Fin r)) (ix2 p (behind k q)) (fun a => match a with
      | ⟨0, _⟩ => by show p.val = 0 + p.val; omega
      | ⟨1, _⟩ => by
          show (behind k q).val = 0 + (q.val - k)
          rw [behind_val_of_ge hkn q hq']; omega)

/-! ## A sum over the lanes -/

/-- The vector unit's sum over the lanes (its accumulator the zero word, the sum's neutral element) is, in row `p`,
    the sum of the row's `n` entries. -/
theorem laneSum_apply {B n : Nat} (v : FVec Ideal (⟨2, ![B, n]⟩ : Shape) .f32)
    (h : Shape.Reduces (⟨2, ![B, n]⟩ : Shape) [(1 : Fin 2)] (⟨1, ![B]⟩ : Shape)) (hφ : FKind.Formats .f32)
    (hacc : (0x00000000#32 : BitVec 32) = FKind.add.neutral .f32 hφ) (p : Fin B) :
    multiReduction .add [(1 : Fin 2)] (⟨1, ![B]⟩ : Shape) v 0x00000000#32 h hφ hacc (ix1 p) = ∑ k : Fin n, v (ix2 p k) := by
  refine (Ideal.multiReduction_add_single v 0x00000000#32 h hφ hacc (ix1 p)).trans ?_
  refine Finset.sum_congr rfl fun k _ => ?_
  exact congrArg v (funext fun a => Fin.ext (by match a with | ⟨0, _⟩ => rfl | ⟨1, _⟩ => rfl))

/-- A ROW'S SHARE OF ITS OWN TOTAL: a `[B, n]` vector divided by its lane sums — the sums taken on the vector unit, cast
    to a column and broadcast back along the lanes, as a `keepdims` sum is — holds at `(p, q)` the entry divided by the
    sum of row `p`. -/
theorem rowShare_apply {B n : Nat} (U : FVec Ideal (⟨2, ![B, n]⟩ : Shape) .f32)
    (hred : Shape.Reduces (⟨2, ![B, n]⟩ : Shape) [(1 : Fin 2)] (⟨1, ![B]⟩ : Shape)) (hφ : FKind.Formats .f32)
    (hacc : (0x00000000#32 : BitVec 32) = FKind.add.neutral .f32 hφ)
    (hcast : Shape.ShapeCasts (⟨1, ![B]⟩ : Shape) (⟨2, ![B, 1]⟩ : Shape))
    (hbc : Shape.Broadcasts (⟨2, ![B, 1]⟩ : Shape) (⟨2, ![B, n]⟩ : Shape)) (p : Fin B) (q : Fin n) :
    divf U (broadcastTo (⟨2, ![B, n]⟩ : Shape)
        (shapeCast (⟨2, ![B, 1]⟩ : Shape) (multiReduction .add [(1 : Fin 2)] (⟨1, ![B]⟩ : Shape) U 0x00000000#32 hred hφ hacc) hcast)
        hbc) (ix2 p q)
      = Ideal.div (U (ix2 p q)) (∑ k : Fin n, U (ix2 p k)) := by
  refine congrArg (Ideal.div (U (ix2 p q))) ?_
  exact (bcastCol_apply _ hbc p q).trans ((castCol_apply _ hcast p).trans (laneSum_apply U hred hφ hacc p))

end Cert.RowLayout

end
-- ==== Proof.Payload.lean ====
/-
  What the kernel's body computes, entry by entry.

  The body loads a block of 100000 rows of eight weights and the two columns of scalars that go with them, and stores
  three things. Its first payload is the block of new weights: the three contributions of `Ring.unnorm` — the block
  rotated by one lane times `a * b`, rotated by two lanes times `a * (1 - b)`, and itself times `1 - a`, the scalars
  broadcast along the lanes — divided by each row's lane sum and clamped. Read at row `p`, state `q`, that is
  `Ring.next` of row `p`. The second payload is its logarithm, the third its lane 7.
-/
import proofs.«132434_j23244363006183_1_alg».proof.Proof.Gen.KernelIdeal.Skeleton
import proofs.«132434_j23244363006183_1_alg».proof.Proof.Ring
import proofs.«132434_j23244363006183_1_alg».proof.Proof.LibRowLayout

noncomputable section

open scoped BigOperators

namespace Cert.KernelIdeal.Payload

open Cert.KernelIdeal Cert.KernelIdeal.Gen Idealize.ShloMosaic Idealize.ShloMosaic.ValueIdx Cert.Ring Cert.RowLayout

/-- A row whose eight entries are the unnormalised weights has, clamped, the new weights as its shares. -/
theorem next_of_unnorm {B : Nat} (s : Fin 8 → EReal) (a b : EReal) (U : (⟨2, ![B, 8]⟩ : Shape).Idx → EReal) (p : Fin B)
    (h : ∀ k : Fin 8, U (ix2 p k) = unnorm s a b k) (q : Fin 8) :
    min hi (max lo (Ideal.div (U (ix2 p q)) (∑ k : Fin 8, U (ix2 p k)))) = next s a b q := by
  unfold next
  rw [h q, Finset.sum_congr rfl (fun k _ => h k)]

/-- THE NEW WEIGHTS, at row `p` and state `q` of the block: `next` of the block's row `p` and the two scalars of row `p`. -/
theorem pay1_apply (v0 : Vec Ideal S100000x8 .f32) (v1 v3 : Vec Ideal S100000x1 .f32) (p : Fin 100000) (q : Fin 8) :
    k0_pay1 (F := Ideal) v0 v1 v3 (ix2 p q)
      = next (fun k => v0 (ix2 p k)) (v1 (ix2 p (0 : Fin 1))) (v3 (ix2 p (0 : Fin 1))) q := by
  unfold k0_pay1
  simp only [shapeCast_self]
  refine (congrArg (min hi) (congrArg (max lo) (rowShare_apply _ _ _ _ _ _ p q))).trans ?_
  refine next_of_unnorm _ _ _ _ p (fun k => ?_) q
  unfold unnorm
  simp only [addf_apply, mulf_apply]
  refine congrArg₂ (· + ·) (congrArg₂ (· + ·) (congrArg₂ (· * ·) ?_ ?_) (congrArg₂ (· * ·) ?_ ?_)) (congrArg₂ (· * ·) rfl ?_)
  · exact rotLanes_apply 1#32 v0 _ p k
  · exact bcastCol_apply _ _ p k
  · exact rotLanes_apply 2#32 v0 _ p k
  · exact bcastCol_apply _ _ p k
  · exact bcastCol_apply _ _ p k

/-- The block of new weights is `Ring.step` of the loaded block and columns. -/
theorem pay1_eq (v0 : Vec Ideal S100000x8 .f32) (v1 v3 : Vec Ideal S100000x1 .f32) :
    k0_pay1 (F := Ideal) v0 v1 v3 = step v0 v1 v3 := by
  funext j
  obtain ⟨p, q, rfl⟩ : ∃ (p : Fin 100000) (q : Fin 8), j = ix2 p q := ⟨j 0, j 1, eq_ix2 j⟩
  exact pay1_apply v0 v1 v3 p q

/-- A logarithm taken entry by entry, read at an entry. -/
theorem log_apply {s : Shape} (x : FVec Ideal s .f32) (i : s.Idx) : log x i = Ideal.log (x i) := rfl

/-- The second payload is the logarithm of the first, entry by entry. -/
theorem pay2_eq (v0 : Vec Ideal S100000x8 .f32) (v1 v3 : Vec Ideal S100000x1 .f32) :
    k0_pay2 (F := Ideal) v0 v1 v3 = logStep v0 v1 v3 := by
  funext j
  unfold k0_pay2
  rw [pay1_eq]
  exact log_apply _ j

/-- The third payload is lane 7 of the first, as a column. -/
theorem pay3_eq (v0 : Vec Ideal S100000x8 .f32) (v1 v3 : Vec Ideal S100000x1 .f32) :
    k0_pay3 (F := Ideal) v0 v1 v3 = accept v0 v1 v3 := by
  funext j
  obtain ⟨p, q, rfl⟩ : ∃ (p : Fin 100000) (q : Fin 1), j = ix2 p q := ⟨j 0, j 1, eq_ix2 j⟩
  obtain rfl : q = 0 := Subsingleton.elim _ _
  unfold k0_pay3
  refine (extractStridedSlice_apply ![0, 7] _ _ (ix2 p (0 : Fin 1)) (ix2 p (7 : Fin 8)) (fun a => match a with
    | ⟨0, _⟩ => by show p.val = 0 + p.val; omega
    | ⟨1, _⟩ => rfl)).trans ?_
  rw [pay1_eq]
  rfl

end Cert.KernelIdeal.Payload

end
-- ==== Proof.Blocks.lean ====
/-
  From blocks to arrays: what the three output arrays hold once every grid point has written its block back.

  The grid has twenty points; point `t` works on rows `100000 * t` to `100000 * t + 99999` of every array: a block of
  100000 rows of the weights and of each output, and the matching 100000 entries of the two scalar columns. Row `p` of
  point `t`'s block is row `100000 * t + p` of the array (`arow`), in the same lane.

  Because the step is row-local (`Ring.step_rows`), what point `t` writes back — the step of its blocks — is block `t`
  of the step of the whole arrays. The twenty blocks tile each output array (row `r` lies in block `r / 100000`), so
  each array ends holding the step, its logarithm, or its accepting lane, of the arrays the region was entered with.
-/
import proofs.«132434_j23244363006183_1_alg».proof.Proof.Gen.KernelIdeal.Frame
import proofs.«132434_j23244363006183_1_alg».proof.Proof.Payload
import Idealize.ShloMosaic.Lib.Pipeline.Value

noncomputable section

namespace Cert.KernelIdeal.Blocks

open Cert.KernelIdeal Cert.KernelIdeal.Gen Idealize.ShloMosaic Idealize.ShloMosaic.TcCoe Idealize.SL.Sem
open Idealize.ShloMosaic.ValueIdx Cert.Ring Cert.KernelIdeal.Payload
open Idealize.ShloMosaic.Pipeline (Dat)

variable (m : (ℓ : Loc nD τ sig) → Buf (Elt Ideal) ℓ)

theorem hz : (![0, 0] : Fin 2 → Nat) = fun _ => 0 := funext fun a => by fin_cases a <;> rfl

/-! ## Where a block sits -/

/-- The printed index maps, decided over the twenty grid points: every window's block index is the point's number on
    the rows and zero on the lanes. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

theorem point_lt (t : Fin cfg0.N) : t.val < 20 := Nat.lt_of_lt_of_eq t.isLt N_0

/-- The array row that row `p` of point `t`'s block is. -/
def arow (t : Fin cfg0.N) (p : Fin 100000) : Fin 2000000 :=
  ⟨t.val * 100000 + p.val, by have := point_lt t; have := p.isLt; omega⟩

/-- Entry `(p, k)` of point `t`'s block of the weights is entry `(arow t p, k)` of the array … -/
theorem emb0 (t : Fin cfg0.N) (p : Fin 100000) (k : Fin 8) :
    ((cfg0.win 0).blk t).view.emb (ix2 p k) = ix2 (arow t p) k := by
  obtain ⟨e0, e1, -⟩ := idx_facts t
  funext a; apply Fin.ext
  match a with
  | ⟨0, _⟩ => show win0_0.index t (0 : Fin 2) * 100000 + 1 * p.val = t.val * 100000 + p.val; rw [e0]; omega
  | ⟨1, _⟩ => show win0_0.index t (1 : Fin 2) * 8 + 1 * k.val = k.val; rw [e1]; omega
/-- … and likewise of each scalar column … -/
theorem emb1 (t : Fin cfg0.N) (p : Fin 100000) :
    ((cfg0.win 1).blk t).view.emb (ix2 p (0 : Fin 1)) = ix2 (arow t p) (0 : Fin 1) := by
  obtain ⟨-, -, e0, e1, -⟩ := idx_facts t
  funext a; apply Fin.ext
  match a with
  | ⟨0, _⟩ => show win0_1.index t (0 : Fin 2) * 100000 + 1 * p.val = t.val * 100000 + p.val; rw [e0]; omega
  | ⟨1, _⟩ => show win0_1.index t (1 : Fin 2) * 1 + 1 * 0 = 0; rw [e1]
theorem emb2 (t : Fin cfg0.N) (p : Fin 100000) :
    ((cfg0.win 2).blk t).view.emb (ix2 p (0 : Fin 1)) = ix2 (arow t p) (0 : Fin 1) := by
  obtain ⟨-, -, -, -, e0, e1, -⟩ := idx_facts t
  funext a; apply Fin.ext
  match a with
  | ⟨0, _⟩ => show win0_2.index t (0 : Fin 2) * 100000 + 1 * p.val = t.val * 100000 + p.val; rw [e0]; omega
  | ⟨1, _⟩ => show win0_2.index t (1 : Fin 2) * 1 + 1 * 0 = 0; rw [e1]
/-- … and of each output. -/
theorem emb3 (t : Fin cfg0.N) (p : Fin 100000) (k : Fin 8) :
    ((cfg0.win 3).blk t).view.emb (ix2 p k) = ix2 (arow t p) k := by
  obtain ⟨-, -, -, -, -, -, e0, e1, -⟩ := idx_facts t
  funext a; apply Fin.ext
  match a with
  | ⟨0, _⟩ => show win0_3.index t (0 : Fin 2) * 100000 + 1 * p.val = t.val * 100000 + p.val; rw [e0]; omega
  | ⟨1, _⟩ => show win0_3.index t (1 : Fin 2) * 8 + 1 * k.val = k.val; rw [e1]; omega
theorem emb4 (t : Fin cfg0.N) (p : Fin 100000) (k : Fin 8) :
    ((cfg0.win 4).blk t).view.emb (ix2 p k) = ix2 (arow t p) k := by
  obtain ⟨-, -, -, -, -, -, -, -, e0, e1, -⟩ := idx_facts t
  funext a; apply Fin.ext
  match a with
  | ⟨0, _⟩ => show win0_4.index t (0 : Fin 2) * 100000 + 1 * p.val = t.val * 100000 + p.val; rw [e0]; omega
  | ⟨1, _⟩ => show win0_4.index t (1 : Fin 2) * 8 + 1 * k.val = k.val; rw [e1]; omega
theorem emb5 (t : Fin cfg0.N) (p : Fin 100000) :
    ((cfg0.win 5).blk t).view.emb (ix2 p (0 : Fin 1)) = ix2 (arow t p) (0 : Fin 1) := by
  obtain ⟨-, -, -, -, -, -, -, -, -, -, e0, e1⟩ := idx_facts t
  funext a; apply Fin.ext
  match a with
  | ⟨0, _⟩ => show win0_5.index t (0 : Fin 2) * 100000 + 1 * p.val = t.val * 100000 + p.val; rw [e0]; omega
  | ⟨1, _⟩ => show win0_5.index t (1 : Fin 2) * 1 + 1 * 0 = 0; rw [e1]

/-! ## The input blocks, read off the arrays the region is entered with -/

theorem read0 (c : Dev nD) (t : Fin cfg0.N) (p : Fin 100000) (k : Fin 8) :
    iblk m c 0 t (ix2 p k) = V m c main_arg1 (ix2 (arow t p) k) := by
  show V m c main_arg1 (((cfg0.win 0).blk t).view.emb (ix2 p k)) = _
  rw [emb0]
theorem read1 (c : Dev nD) (t : Fin cfg0.N) (p : Fin 100000) :
    iblk m c 1 t (ix2 p (0 : Fin 1)) = V m c main_v0 (ix2 (arow t p) (0 : Fin 1)) := by
  show V m c main_v0 (((cfg0.win 1).blk t).view.emb (ix2 p (0 : Fin 1))) = _
  rw [emb1]
theorem read2 (c : Dev nD) (t : Fin cfg0.N) (p : Fin 100000) :
    iblk m c 2 t (ix2 p (0 : Fin 1)) = V m c main_v1 (ix2 (arow t p) (0 : Fin 1)) := by
  show V m c main_v1 (((cfg0.win 2).blk t).view.emb (ix2 p (0 : Fin 1))) = _
  rw [emb2]

/-! ## What the body leaves in each output's buffer -/

theorem out3_eq (x0 : Vec Ideal S100000x8 .f32) (x1 x2 : Vec Ideal S100000x1 .f32) : out0_3 x0 x1 x2 = logStep x0 x1 x2 := by
  unfold out0_3
  rw [View.canon_unit_zero hz]
  simp only [View.ld_unit_zero (S := S100000x8) hz, View.ld_unit_zero (S := S100000x1) hz]
  exact pay2_eq x0 x1 x2
theorem out4_eq (x0 : Vec Ideal S100000x8 .f32) (x1 x2 : Vec Ideal S100000x1 .f32) : out0_4 x0 x1 x2 = step x0 x1 x2 := by
  unfold out0_4
  rw [View.canon_unit_zero hz]
  simp only [View.ld_unit_zero (S := S100000x8) hz, View.ld_unit_zero (S := S100000x1) hz]
  exact pay1_eq x0 x1 x2
theorem out5_eq (x0 : Vec Ideal S100000x8 .f32) (x1 x2 : Vec Ideal S100000x1 .f32) : out0_5 x0 x1 x2 = accept x0 x1 x2 := by
  unfold out0_5
  rw [View.canon_unit_zero hz]
  simp only [View.ld_unit_zero (S := S100000x8) hz, View.ld_unit_zero (S := S100000x1) hz]
  exact pay3_eq x0 x1 x2

/-! ## What each point writes back is its block of the whole arrays' step -/

/-- Point `t`'s step of its blocks, at row `p`, is the whole arrays' step at row `arow t p`. -/
theorem step_block (c : Dev nD) (t : Fin cfg0.N) (p : Fin 100000) (q : Fin 8) :
    step (iblk m c 0 t) (iblk m c 1 t) (iblk m c 2 t) (ix2 p q)
      = step (V m c main_arg1) (V m c main_v0) (V m c main_v1) (ix2 (arow t p) q) :=
  step_rows _ _ _ _ _ _ p (arow t p) q (fun k => read0 m c t p k) (read1 m c t p) (read2 m c t p)

theorem flushed4_eq (c : Dev nD) (t : Fin cfg0.N) :
    (dats m 0 c).flushed 4 t
      = ((cfg0.win 4).blk t).view.read (Elt Ideal) (step (V m c main_arg1) (V m c main_v0) (V m c main_v1)) := by
  show (cfg0.win 4).cut (grid0.coords t) ((dats m 0 c).after 4 t) = _
  rw [after0_4, out4_eq]
  funext j
  obtain ⟨p, q, rfl⟩ : ∃ (p : Fin 100000) (q : Fin 8), j = ix2 p q := ⟨j 0, j 1, eq_ix2 j⟩
  show step (iblk m c 0 t) (iblk m c 1 t) (iblk m c 2 t) (ix2 p q)
    = step (V m c main_arg1) (V m c main_v0) (V m c main_v1) (((cfg0.win 4).blk t).view.emb (ix2 p q))
  rw [emb4]
  exact step_block m c t p q

theorem flushed3_eq (c : Dev nD) (t : Fin cfg0.N) :
    (dats m 0 c).flushed 3 t
      = ((cfg0.win 3).blk t).view.read (Elt Ideal) (logStep (V m c main_arg1) (V m c main_v0) (V m c main_v1)) := by
  show (cfg0.win 3).cut (grid0.coords t) ((dats m 0 c).after 3 t) = _
  rw [after0_3, out3_eq]
  funext j
  obtain ⟨p, q, rfl⟩ : ∃ (p : Fin 100000) (q : Fin 8), j = ix2 p q := ⟨j 0, j 1, eq_ix2 j⟩
  show Ideal.log (step (iblk m c 0 t) (iblk m c 1 t) (iblk m c 2 t) (ix2 p q))
    = Ideal.log (step (V m c main_arg1) (V m c main_v0) (V m c main_v1) (((cfg0.win 3).blk t).view.emb (ix2 p q)))
  rw [emb3, step_block]

theorem flushed5_eq (c : Dev nD) (t : Fin cfg0.N) :
    (dats m 0 c).flushed 5 t
      = ((cfg0.win 5).blk t).view.read (Elt Ideal) (accept (V m c main_arg1) (V m c main_v0) (V m c main_v1)) := by
  show (cfg0.win 5).cut (grid0.coords t) ((dats m 0 c).after 5 t) = _
  rw [after0_5, out5_eq]
  funext j
  obtain ⟨p, q, rfl⟩ : ∃ (p : Fin 100000) (q : Fin 1), j = ix2 p q := ⟨j 0, j 1, eq_ix2 j⟩
  obtain rfl : q = 0 := Subsingleton.elim _ _
  show step (iblk m c 0 t) (iblk m c 1 t) (iblk m c 2 t) (ix2 p (7 : Fin 8))
    = accept (V m c main_arg1) (V m c main_v0) (V m c main_v1) (((cfg0.win 5).blk t).view.emb (ix2 p (0 : Fin 1)))
  rw [emb5, step_block]
  rfl

/-! ## The blocks tile each output array -/

theorem mem_blk3 (t : Fin cfg0.N) (i : S2000000x8.Idx) :
    i ∈ ((cfg0.win 3).blk t).view.set ↔ ∀ a : Fin 2, win0_3.index t a * S100000x8.size a ≤ (i a).val
      ∧ (i a).val < win0_3.index t a * S100000x8.size a + S100000x8.size a := by
  show i ∈ ((View.whole main_v2_0).slice (win0_3.rect t)).set ↔ _
  rw [View.set_slice_whole, Rect.mem_set_unit]
  exact Iff.rfl
theorem mem_blk4 (t : Fin cfg0.N) (i : S2000000x8.Idx) :
    i ∈ ((cfg0.win 4).blk t).view.set ↔ ∀ a : Fin 2, win0_4.index t a * S100000x8.size a ≤ (i a).val
      ∧ (i a).val < win0_4.index t a * S100000x8.size a + S100000x8.size a := by
  show i ∈ ((View.whole main_v2_1).slice (win0_4.rect t)).set ↔ _
  rw [View.set_slice_whole, Rect.mem_set_unit]
  exact Iff.rfl
theorem mem_blk5 (t : Fin cfg0.N) (i : S2000000x1.Idx) :
    i ∈ ((cfg0.win 5).blk t).view.set ↔ ∀ a : Fin 2, win0_5.index t a * S100000x1.size a ≤ (i a).val
      ∧ (i a).val < win0_5.index t a * S100000x1.size a + S100000x1.size a := by
  show i ∈ ((View.whole main_v2_2).slice (win0_5.rect t)).set ↔ _
  rw [View.set_slice_whole, Rect.mem_set_unit]
  exact Iff.rfl

/-- The point whose block holds row `r`. -/
def pointOf (r : Nat) (hr : r < 2000000) : Fin cfg0.N := ⟨r / 100000, Nat.lt_of_lt_of_eq (by omega) N_0.symm⟩

theorem cover3 (i : S2000000x8.Idx) : ∃ t : Fin cfg0.N, (cfg0.win 3).flush t = true ∧ i ∈ ((cfg0.win 3).blk t).view.set := by
  have hi0 : (i 0).val < 2000000 := (i 0).isLt
  have hi1 : (i 1).val < 8 := (i 1).isLt
  obtain ⟨-, -, -, -, -, -, e0, e1, -⟩ := idx_facts (pointOf (i 0).val hi0)
  refine ⟨pointOf (i 0).val hi0, flush0_3 _, ?_⟩
  rw [mem_blk3]
  intro a
  match a with
  | ⟨0, _⟩ =>
    show win0_3.index (pointOf (i 0).val hi0) (0 : Fin 2) * 100000 ≤ (i 0).val
      ∧ (i 0).val < win0_3.index (pointOf (i 0).val hi0) (0 : Fin 2) * 100000 + 100000
    rw [e0]; show (i 0).val / 100000 * 100000 ≤ (i 0).val ∧ (i 0).val < (i 0).val / 100000 * 100000 + 100000; omega
  | ⟨1, _⟩ =>
    show win0_3.index (pointOf (i 0).val hi0) (1 : Fin 2) * 8 ≤ (i 1).val
      ∧ (i 1).val < win0_3.index (pointOf (i 0).val hi0) (1 : Fin 2) * 8 + 8
    rw [e1]; omega
theorem cover4 (i : S2000000x8.Idx) : ∃ t : Fin cfg0.N, (cfg0.win 4).flush t = true ∧ i ∈ ((cfg0.win 4).blk t).view.set := by
  have hi0 : (i 0).val < 2000000 := (i 0).isLt
  have hi1 : (i 1).val < 8 := (i 1).isLt
  obtain ⟨-, -, -, -, -, -, -, -, e0, e1, -⟩ := idx_facts (pointOf (i 0).val hi0)
  refine ⟨pointOf (i 0).val hi0, flush0_4 _, ?_⟩
  rw [mem_blk4]
  intro a
  match a with
  | ⟨0, _⟩ =>
    show win0_4.index (pointOf (i 0).val hi0) (0 : Fin 2) * 100000 ≤ (i 0).val
      ∧ (i 0).val < win0_4.index (pointOf (i 0).val hi0) (0 : Fin 2) * 100000 + 100000
    rw [e0]; show (i 0).val / 100000 * 100000 ≤ (i 0).val ∧ (i 0).val < (i 0).val / 100000 * 100000 + 100000; omega
  | ⟨1, _⟩ =>
    show win0_4.index (pointOf (i 0).val hi0) (1 : Fin 2) * 8 ≤ (i 1).val
      ∧ (i 1).val < win0_4.index (pointOf (i 0).val hi0) (1 : Fin 2) * 8 + 8
    rw [e1]; omega
theorem cover5 (i : S2000000x1.Idx) : ∃ t : Fin cfg0.N, (cfg0.win 5).flush t = true ∧ i ∈ ((cfg0.win 5).blk t).view.set := by
  have hi0 : (i 0).val < 2000000 := (i 0).isLt
  have hi1 : (i 1).val < 1 := (i 1).isLt
  obtain ⟨-, -, -, -, -, -, -, -, -, -, e0, e1⟩ := idx_facts (pointOf (i 0).val hi0)
  refine ⟨pointOf (i 0).val hi0, flush0_5 _, ?_⟩
  rw [mem_blk5]
  intro a
  match a with
  | ⟨0, _⟩ =>
    show win0_5.index (pointOf (i 0).val hi0) (0 : Fin 2) * 100000 ≤ (i 0).val
      ∧ (i 0).val < win0_5.index (pointOf (i 0).val hi0) (0 : Fin 2) * 100000 + 100000
    rw [e0]; show (i 0).val / 100000 * 100000 ≤ (i 0).val ∧ (i 0).val < (i 0).val / 100000 * 100000 + 100000; omega
  | ⟨1, _⟩ =>
    show win0_5.index (pointOf (i 0).val hi0) (1 : Fin 2) * 1 ≤ (i 1).val
      ∧ (i 1).val < win0_5.index (pointOf (i 0).val hi0) (1 : Fin 2) * 1 + 1
    rw [e1]; omega

/-! ## The three output arrays after the region -/

/-- The array of logarithms ends holding the logarithm of the step of the arrays the region was entered with, … -/
theorem final3 (c : Dev nD) :
    (dats m 0 c).arrAt 3 cfg0.N = logStep (V m c main_arg1) (V m c main_v0) (V m c main_v1) :=
  (dats m 0 c).arrAt_eq_of_cover 3 _ (fun t _ => flushed3_eq m c t) cover3
/-- … the array of new weights the step, … -/
theorem final4 (c : Dev nD) :
    (dats m 0 c).arrAt 4 cfg0.N = step (V m c main_arg1) (V m c main_v0) (V m c main_v1) :=
  (dats m 0 c).arrAt_eq_of_cover 4 _ (fun t _ => flushed4_eq m c t) cover4
/-- … and the accepting column its lane 7. -/
theorem final5 (c : Dev nD) :
    (dats m 0 c).arrAt 5 cfg0.N = accept (V m c main_arg1) (V m c main_v0) (V m c main_v1) :=
  (dats m 0 c).arrAt_eq_of_cover 5 _ (fun t _ => flushed5_eq m c t) cover5

end Cert.KernelIdeal.Blocks

end
-- ==== Proof.KernelRun.lean ====
/-
  The kernel's program, run: what its three results hold.

  Around the region the host does three re-layouts and nothing else. Before it, the two flat vectors of scalars are cast
  to columns, so the region finds each column holding, in row `r`, the flat vector's entry `r`. After it, the
  accepting column is cast back to a flat vector. The weights array is handed to the region as it was launched.

  So with the three output arrays of `Blocks` the program ends with: the logarithm of the step, the step, and the step's
  accepting lane as a flat vector — each of the weights array and the two flat vectors read as columns — and its four
  arguments as they were launched.
-/
import proofs.«132434_j23244363006183_1_alg».proof.Proof.Blocks
import Idealize.ShloMosaic.Lib.StableHlo.Run

noncomputable section

namespace Cert.KernelIdeal.KernelRun

open Cert.KernelIdeal Cert.KernelIdeal.Gen Idealize.ShloMosaic Idealize.ShloMosaic.TcCoe Idealize.SL.Sem
open Idealize.ShloMosaic.ValueIdx Cert.Ring Cert.KernelIdeal.Blocks Idealize.ShloMosaic.StableHlo

variable (m : (ℓ : Loc nD τ sig) → Buf (Elt Ideal) ℓ) (ρ : Dev nD → PrngReg)

/-! ## The arrays the region is entered with -/

/-- A flat vector cast to a column is that vector read as a column. -/
theorem cast_asCol (a : S2000000.Idx → EReal) :
    shapeCast S2000000x1 a shapeCasts_S2000000_S2000000x1 = asCol a := by
  funext i
  obtain ⟨p, q, rfl⟩ : ∃ (p : Fin 2000000) (q : Fin 1), i = ix2 p q := ⟨i 0, i 1, eq_ix2 i⟩
  obtain rfl : q = 0 := Subsingleton.elim _ _
  exact Cert.RowLayout.castCol_apply a _ p

/-- The region finds the first scalar column holding the flat vector `main_arg2` read as a column … -/
theorem V_v0 (c : Dev nD) :
    (V m c main_v0 : S2000000x1.Idx → EReal) = asCol (m ((c : Thread nD τ).loc main_arg2)) := by
  have e : (V m c main_v0 : S2000000x1.Idx → EReal)
      = shapeCast S2000000x1 (m ((c : Thread nD τ).loc main_arg2)) shapeCasts_S2000000_S2000000x1 := by
    show StableHlo.after hostOps0 (fun b => m (c, b)) (Proc.devRef .tc main_v0) = _
    after_results
    rfl
  rw [e, cast_asCol]

/-- … and the second holding `main_arg3` read as a column. -/
theorem V_v1 (c : Dev nD) :
    (V m c main_v1 : S2000000x1.Idx → EReal) = asCol (m ((c : Thread nD τ).loc main_arg3)) := by
  have e : (V m c main_v1 : S2000000x1.Idx → EReal)
      = shapeCast S2000000x1 (m ((c : Thread nD τ).loc main_arg3)) shapeCasts_S2000000_S2000000x1 := by
    show StableHlo.after hostOps0 (fun b => m (c, b)) (Proc.devRef .tc main_v1) = _
    after_results
    rfl
  rw [e, cast_asCol]

/-! ## The accepting column, cast back to a flat vector after the region -/

theorem tail_v3 (c : Dev nD) :
    Pipeline.afterTail₀ cfgs (dats m) 0 (V0 m) [hostOps1] c main_v3
      = asFlat (accept (V m c main_arg1) (V m c main_v0) (V m c main_v1)) := by
  have hW : Pipeline.withArrays (cfgs 0).spec c (V0 m c) (fun w => (dats m 0 c).arrAt w (cfgs 0).N) (Proc.devRef .tc main_v2_2)
      = accept (V m c main_arg1) (V m c main_v0) (V m c main_v1) :=
    (Pipeline.withArrays_arr spec0 launch0.win.arr_inj c _ _ 5).trans (final5 m c)
  unfold Pipeline.afterTail₀
  show StableHlo.after hostOps1 _ (Proc.devRef .tc main_v3) = _
  after_results
  funext i
  obtain ⟨r, rfl⟩ : ∃ r : Fin 2000000, i = ix1 r := ⟨i 0, eq_ix1 i⟩
  show shapeCast S2000000 (Pipeline.withArrays (cfgs 0).spec c (V0 m c) (fun w => (dats m 0 c).arrAt w (cfgs 0).N)
      (Proc.devRef .tc main_v2_2)) shapeCasts_S2000000x1_S2000000 (ix1 r) = _
  rw [hW]
  exact Cert.RowLayout.castFlat_apply _ _ r

/-! ## The run -/

/-- Every weakly fair execution of the kernel's program ends with its three results at the logarithm of the step, the
    step, and the step's accepting lane, of its argument arrays, and with the arguments unchanged. -/
theorem run : θ_run defs (onTc (τ := τ) (main (F := Ideal))) ⟨m, fun _ => 0, ρ⟩ fun r => ∀ c : Dev nD,
      r.2.mem ((c.tc : Thread nD τ).loc main_v2_0)
          = logStep (m ((c.tc : Thread nD τ).loc main_arg1)) (asCol (m ((c.tc : Thread nD τ).loc main_arg2)))
              (asCol (m ((c.tc : Thread nD τ).loc main_arg3)))
      ∧ r.2.mem ((c.tc : Thread nD τ).loc main_v2_1)
          = step (m ((c.tc : Thread nD τ).loc main_arg1)) (asCol (m ((c.tc : Thread nD τ).loc main_arg2)))
              (asCol (m ((c.tc : Thread nD τ).loc main_arg3)))
      ∧ r.2.mem ((c.tc : Thread nD τ).loc main_v3)
          = asFlat (accept (m ((c.tc : Thread nD τ).loc main_arg1)) (asCol (m ((c.tc : Thread nD τ).loc main_arg2)))
              (asCol (m ((c.tc : Thread nD τ).loc main_arg3))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => by
    have hx : V m c main_arg1 = m ((c : Thread nD τ).loc main_arg1) := V_main_arg1 m c
    refine ⟨?_, ?_, ?_, ?_, ?_, ?_, ?_⟩
    · refine ((h c).1 3).trans ((final3 m c).trans ?_)
      rw [hx, V_v0, V_v1]
    · refine ((h c).1 4).trans ((final4 m c).trans ?_)
      rw [hx, V_v0, V_v1]
    · refine ((h c).2 main_v3 (Pipeline.mem_restRefs_of main_v3 (by decide) (by decide))).trans ((tail_v3 m c).trans ?_)
      rw [hx, V_v0, V_v1]
    · exact ((h c).2 main_arg0 (Pipeline.mem_restRefs_of main_arg0 (by decide) (by decide))).trans (W_main_arg0 m (dats m) c)
    · exact ((h c).1 0).trans (((dats m 0 c).arrAt_in 0 rfl _).trans ((A_eq m c 0).trans (V_main_arg1 m c)))
    · exact ((h c).2 main_arg2 (Pipeline.mem_restRefs_of main_arg2 (by decide) (by decide))).trans (W_main_arg2 m (dats m) c)
    · exact ((h c).2 main_arg3 (Pipeline.mem_restRefs_of main_arg3 (by decide) (by decide))).trans (W_main_arg3 m (dats m) c))
    (run_main m ρ)

end Cert.KernelIdeal.KernelRun

end
-- ==== Proof.RefStep.lean ====
/-
  The reference computes the step of the whole arrays.

  The host program works on all two million rows at once. It spells the two lane rotations as "slice off the last
  lanes and join them in front", broadcasts the three move weights from flat vectors through columns to all lanes, sums
  each row on the host (an initial zero in front of the sum), divides, clamps by a maximum then a minimum, and takes the
  logarithm. For the accepting state it gathers lane 7 out of every row — the gather's one start index is the constant 7
  after the usual "add the extent if negative" normalisation, which leaves 7 — and then sums over the one gathered lane,
  again with a zero in front.

  Read at row `r` and state `j` this is `Ring.next` of row `r`: the rotations read the lane behind, the zero in front of
  the row sum vanishes, and the sum over the single gathered lane is that lane.
-/
import proofs.«132434_j23244363006183_1_alg».proof.Proof.Gen.ReferenceIdeal.Read
import proofs.«132434_j23244363006183_1_alg».proof.Proof.Ring
import proofs.«132434_j23244363006183_1_alg».proof.Proof.LibRowLayout

noncomputable section

open scoped BigOperators

namespace Cert.ReferenceIdeal.RefStep

open Cert.ReferenceIdeal Cert.ReferenceIdeal.Gen Cert.ReferenceIdeal.Read Idealize.ShloMosaic Idealize.ShloMosaic.ValueIdx
open Cert.Ring Cert.RowLayout

variable (x1 : S2000000x8.Idx → EReal) (x2 x3 : S2000000.Idx → EReal)

/-! ## The two rotations, spelt as slices joined -/

/-- The last lane joined in front of the first seven: lane `j` holds what the lane one behind held. -/
theorem roll1 (r : Fin 2000000) (j : Fin 8) : val_main_v9 (F := Ideal) x1 (ix2 r j) = x1 (ix2 r (back 1 j)) := by
  unfold val_main_v9 val_main_call0_v0 val_main_call0_v1
  exact rollConcat_apply (B := 2000000) (n := 8) (k := 1) (r := 7) rfl (by decide) (by decide) x1 _ _ _ r j

/-- The last two lanes joined in front of the first six: lane `j` holds what the lane two behind held. -/
theorem roll2 (r : Fin 2000000) (j : Fin 8) : val_main_v12 (F := Ideal) x1 (ix2 r j) = x1 (ix2 r (back 2 j)) := by
  unfold val_main_v12 val_main_call1_v0 val_main_call1_v1
  exact rollConcat_apply (B := 2000000) (n := 8) (k := 2) (r := 6) rfl (by decide) (by decide) x1 _ _ _ r j

/-! ## The unnormalised weights and the row's total -/

/-- Before normalisation the reference holds, at row `r` and state `j`, the three contributions of `Ring.unnorm`. -/
theorem unnorm_apply (r : Fin 2000000) (j : Fin 8) :
    val_main_v18 (F := Ideal) x1 x2 x3 (ix2 r j) = unnorm (fun k => x1 (ix2 r k)) (x2 (ix1 r)) (x3 (ix1 r)) j := by
  have i1 : idx_main_v1 (idx_main_v10 (ix2 r j)) = ix1 r := funext fun a => Fin.ext (by match a with | ⟨0, _⟩ => rfl)
  have i5 : idx_main_v5 (idx_main_v13 (ix2 r j)) = ix1 r := funext fun a => Fin.ext (by match a with | ⟨0, _⟩ => rfl)
  have i8 : idx_main_v8 (idx_main_v16 (ix2 r j)) = ix1 r := funext fun a => Fin.ext (by match a with | ⟨0, _⟩ => rfl)
  simp only [val_main_v18_apply, val_main_v15_apply, val_main_v11_apply, val_main_v14_apply, val_main_v17_apply,
    val_main_v10_apply, val_main_v1_apply, val_main_v0_apply, val_main_v13_apply, val_main_v5_apply, val_main_v4_apply,
    val_main_v3_apply, val_main_v2_apply, val_main_cst_apply, val_main_v16_apply, val_main_v8_apply, val_main_v7_apply,
    val_main_v6_apply, val_main_cst_0_apply, i1, i5, i8, roll1, roll2]
  rfl

/-- The row's total, broadcast back to every lane: the zero in front of the host's sum vanishes. -/
theorem total_apply (r : Fin 2000000) (j : Fin 8) :
    val_main_v21 (F := Ideal) x1 x2 x3 (ix2 r j)
      = ∑ k : Fin 8, unnorm (fun k => x1 (ix2 r k)) (x2 (ix1 r)) (x3 (ix1 r)) k := by
  have ik : ∀ k : Fin 8, idx_main_v19 (idx_main_v20 (idx_main_v21 (ix2 r j))) k = ix2 r k := fun k =>
    funext fun a => Fin.ext (by match a with | ⟨0, _⟩ => rfl | ⟨1, _⟩ => rfl)
  rw [val_main_v21_apply, val_main_v20_apply, val_main_v19_apply, val_main_cst_1_apply]
  simp only [ik, unnorm_apply, Ideal.ofBits_def, Ideal.ofBits_zero_f32, zero_add]

/-! ## The three results -/

/-- The upper clamp, broadcast to every entry. -/
theorem hi_apply (i : S2000000x8.Idx) : val_main_call2_v4 (F := Ideal) i = hi :=
  (val_main_call2_v4_apply (F := Ideal) i).trans ((val_main_call2_v3_apply (F := Ideal) _).trans (val_main_cst_3_apply (F := Ideal) _))

/-- The lower clamp, broadcast to every entry. -/
theorem lo_apply (i : S2000000x8.Idx) : val_main_call2_v1 (F := Ideal) i = lo :=
  (val_main_call2_v1_apply (F := Ideal) i).trans ((val_main_call2_v0_apply (F := Ideal) _).trans (val_main_cst_2_apply (F := Ideal) _))

/-- A row's share of its total, before the clamp. -/
theorem share_apply (r : Fin 2000000) (j : Fin 8) :
    val_main_v22 (F := Ideal) x1 x2 x3 (ix2 r j)
      = Ideal.div (unnorm (fun k => x1 (ix2 r k)) (x2 (ix1 r)) (x3 (ix1 r)) j)
          (∑ k : Fin 8, unnorm (fun k => x1 (ix2 r k)) (x2 (ix1 r)) (x3 (ix1 r)) k) :=
  (val_main_v22_apply (F := Ideal) x1 x2 x3 (ix2 r j)).trans
    (congrArg₂ Ideal.div (unnorm_apply x1 x2 x3 r j) (total_apply x1 x2 x3 r j))

/-- The new weights, at row `r` and state `j`: the share, clamped from below and then from above. -/
theorem next_apply (r : Fin 2000000) (j : Fin 8) :
    val_main_v23 (F := Ideal) x1 x2 x3 (ix2 r j) = next (fun k => x1 (ix2 r k)) (x2 (ix1 r)) (x3 (ix1 r)) j :=
  (val_main_v23_apply (F := Ideal) x1 x2 x3 (ix2 r j)).trans
    (congrArg₂ min (hi_apply (ix2 r j))
      ((val_main_call2_v2_apply (F := Ideal) x1 x2 x3 (ix2 r j)).trans
        (congrArg₂ max (lo_apply (ix2 r j)) (share_apply x1 x2 x3 r j))))

/-- THE REFERENCE'S NEW WEIGHTS are the step of its argument arrays, the two flat vectors read as columns. -/
theorem next_eq : val_main_v23 (F := Ideal) x1 x2 x3 = step x1 (asCol x2) (asCol x3) := by
  funext i
  obtain ⟨r, j, rfl⟩ : ∃ (r : Fin 2000000) (j : Fin 8), i = ix2 r j := ⟨i 0, i 1, eq_ix2 i⟩
  exact next_apply x1 x2 x3 r j

/-- The gather of lane 7: its start index is the constant 7 (not negative, so the extent is not added), inside the
    eight lanes, so every row gives up its lane 7. -/
theorem gather7 (y : S2000000x8.Idx → EReal) (r : Fin 2000000) :
    Host.gather gather_S2000000x8_S1x1_S2000000x1_0_1_n_n_1_1_20000001 y (val_main_v30 (F := Ideal)) (ix2 r (0 : Fin 1))
      = y (ix2 r (7 : Fin 8)) := by
  unfold Host.gather
  refine congrArg y (funext fun a => Fin.ext ?_)
  match a with
  | ⟨0, _⟩ =>
    show 0 + 0 + r.val = r.val
    omega
  | ⟨1, _⟩ => rfl

/-- Its logarithms are the step's logarithms. -/
theorem log_eq : val_main_v24 (F := Ideal) x1 x2 x3 = logStep x1 (asCol x2) (asCol x3) := by
  funext i
  exact (val_main_v24_apply (F := Ideal) x1 x2 x3 i).trans
    (Eq.trans (Ideal.hostUnary_log_def _) (congrArg Ideal.log (congrFun (next_eq x1 x2 x3) i)))

/-- Its accepting weights are the step's accepting lane, read as a flat vector: the sum over the one gathered lane,
    behind a zero, is that lane. -/
theorem accept_eq : val_main_v32 (F := Ideal) x1 x2 x3 = asFlat (accept x1 (asCol x2) (asCol x3)) := by
  funext i
  obtain ⟨r, rfl⟩ : ∃ r : Fin 2000000, i = ix1 r := ⟨i 0, eq_ix1 i⟩
  have i0 : idx_main_v32 (ix1 r) (0 : Fin 1) = ix2 r (0 : Fin 1) :=
    funext fun a => Fin.ext (by match a with | ⟨0, _⟩ => rfl | ⟨1, _⟩ => rfl)
  have hg : val_main_v31 (F := Ideal) x1 x2 x3 (ix2 r (0 : Fin 1)) = step x1 (asCol x2) (asCol x3) (ix2 r (7 : Fin 8)) :=
    (gather7 (val_main_v23 (F := Ideal) x1 x2 x3) r).trans (congrFun (next_eq x1 x2 x3) _)
  rw [val_main_v32_apply, val_main_cst_6_apply, Fin.sum_univ_one, i0, hg]
  simp only [Ideal.ofBits_def, Ideal.ofBits_zero_f32, zero_add]
  rfl

end Cert.ReferenceIdeal.RefStep

end
-- ==== Proof.lean ====
/-
  One step of a fuzzy automaton on a ring of eight states, two million rows at a time: the kernel against the host
  reference, equal on the extended reals.

  Each row holds eight state weights `s` and two scalars `a`, `b`. State `j`'s new weight is
  `s (j - 1) * (a * b) + s (j - 2) * (a * (1 - b)) + s j * (1 - a)` (indices around the ring), divided by the sum of the
  eight such values, clamped from below and then from above by two fixed float words (`Ring.next`). The programs return the
  logarithm of the new weights, the new weights, and the new weight of state 7 of every row.

  The kernel cuts the rows into twenty blocks of 100000 and computes each block apart; that is sound because a row's new
  weights depend on that row alone (`Ring.step_rows`), and the twenty blocks tile the arrays (`Blocks`). Inside a block
  it rotates the lanes, broadcasts the scalars from columns, sums the lanes on the vector unit and divides (`Payload`).
  The reference does the same on all rows at once, with the rotations spelt as slices joined, the row sum a host sum with
  a zero in front, and the accepting weight a gather of lane 7 followed by a sum over that one lane (`RefStep`).

  Nothing differs between the two but layout and three harmless rearrangements: a rotation against a join of slices, a
  sum with and without a zero in front, and a lane picked by a slice against a gather and a one-term sum. The only law
  used is `0 + x = x`, which holds on every extended real, so the precondition (finite inputs) is never opened. Both
  sides apply the same division, the same maximum and minimum in the same order, and the same logarithm, to the same
  words.

  The three frames are the generated ones (the reference's is its generated run with the results dropped); the kernel
  is its own idealization (the ideal pass rewrote nothing), so `preserves` is `True`.
-/
import proofs.«132434_j23244363006183_1_alg».proof.Defs
import proofs.«132434_j23244363006183_1_alg».proof.Proof.Gen.Kernel
import proofs.«132434_j23244363006183_1_alg».proof.Proof.Gen.Kernel.Skeleton
import proofs.«132434_j23244363006183_1_alg».proof.Proof.Gen.Kernel.Launch
import proofs.«132434_j23244363006183_1_alg».proof.Proof.Gen.Kernel.Points
import proofs.«132434_j23244363006183_1_alg».proof.Proof.Gen.Kernel.Frame
import proofs.«132434_j23244363006183_1_alg».proof.Proof.Gen.KernelIdeal
import proofs.«132434_j23244363006183_1_alg».proof.Proof.Gen.KernelIdeal.Skeleton
import proofs.«132434_j23244363006183_1_alg».proof.Proof.Gen.KernelIdeal.Launch
import proofs.«132434_j23244363006183_1_alg».proof.Proof.Gen.KernelIdeal.Points
import proofs.«132434_j23244363006183_1_alg».proof.Proof.Gen.KernelIdeal.Frame
import proofs.«132434_j23244363006183_1_alg».proof.Proof.Gen.ReferenceIdeal
import proofs.«132434_j23244363006183_1_alg».proof.Proof.Gen.ReferenceIdeal.Run
import proofs.«132434_j23244363006183_1_alg».proof.Proof.Gen.ReferenceIdeal.Read
import proofs.«132434_j23244363006183_1_alg».proof.Proof.Gen.Pre_finite_inputs
import Idealize.ShloMosaic.Adequacy
import Idealize.ShloMosaic.Init

import proofs.«132434_j23244363006183_1_alg».proof.Proof.KernelRun
import proofs.«132434_j23244363006183_1_alg».proof.Proof.RefStep

noncomputable section

namespace Cert.Proof

open Idealize.ShloMosaic Idealize.ShloMosaic.TcCoe Idealize.SL.Sem Cert.Ring

/-! ## The frames -/

theorem frame_k : Cert.frame_Kernel := fun m ρ _ => Cert.Kernel.Gen.frame m ρ
theorem frame_ki : Cert.frame_KernelIdeal := fun m ρ _ => Cert.KernelIdeal.Gen.frame m ρ
/-- The reference's frame is its run with the three results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-! ## The kernel is its own idealization -/

theorem preserves : Cert.preserves_Kernel_KernelIdeal := trivial

/-! ## The two programs end with equal results -/

/-- From memories that agree on the arguments, both programs end with the logarithm of the step, the step, and the
    step's accepting lane, of the same three arrays. -/
theorem algebraic : Cert.algebraic_KernelIdeal_ReferenceIdeal := by
  intro m ρ m' ρ' _ hagree
  refine ⟨_, _, _, Cert.KernelIdeal.KernelRun.run m ρ, ?_⟩
  refine (θ_run Cert.ReferenceIdeal.defs _ _).mono (fun _ h c => ?_) (Cert.ReferenceIdeal.Value.run (F := Ideal) m' ρ')
  obtain ⟨-, h1, h2, h3⟩ := hagree c
  obtain ⟨rlog, rnext, racc, rargs⟩ := h c
  refine ⟨?_, ?_, ?_, rargs⟩
  · refine rlog.trans ((Cert.ReferenceIdeal.Read.val_main_v24_eq (F := Ideal) _ _ _).trans
      ((Cert.ReferenceIdeal.RefStep.log_eq _ _ _).trans ?_))
    rw [h1, h2, h3]
  · refine rnext.trans ((Cert.ReferenceIdeal.Read.val_main_v23_eq (F := Ideal) _ _ _).trans
      ((Cert.ReferenceIdeal.RefStep.next_eq _ _ _).trans ?_))
    rw [h1, h2, h3]
  · refine racc.trans ((Cert.ReferenceIdeal.Read.val_main_v32_eq (F := Ideal) _ _ _).trans
      ((Cert.ReferenceIdeal.RefStep.accept_eq _ _ _).trans ?_))
    rw [h1, h2, h3]

/-! ## The claim -/

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
